-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512x64 : Shape := ⟨3, ![4096, 512, 64]⟩
abbrev S64x16 : Shape := ⟨2, ![64, 16]⟩
abbrev S16 : Shape := ⟨1, ![16]⟩
abbrev S8192x1 : Shape := ⟨2, ![8192, 1]⟩
abbrev S1 : Shape := ⟨1, ![1]⟩
abbrev S2 : Shape := ⟨1, ![2]⟩
abbrev S512 : Shape := ⟨1, ![512]⟩
abbrev S_ : Shape := ⟨0, ![]⟩

class Facts : Prop where
  bcast_S_S4096x512x64 : S_.BroadcastsInDim S4096x512x64 (![] : Fin 0 → Fin S4096x512x64.rank)
  reducesTo_S4096x512x64_S_d0_1_2 : S4096x512x64.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S8192x1 : S_.BroadcastsInDim S8192x1 (![] : Fin 0 → Fin S8192x1.rank)
  reducesTo_S8192x1_S_d0_1 : S8192x1.ReducesTo [0, 1] S_
  bcast_S_S1 : S_.BroadcastsInDim S1 (![] : Fin 0 → Fin S1.rank)
  reducesTo_S1_S_d0 : S1.ReducesTo [0] S_
  bcast_S_S2 : S_.BroadcastsInDim S2 (![] : Fin 0 → Fin S2.rank)
  reducesTo_S2_S_d0 : S2.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S1 .f32) (main_arg5 : FVec F S2 .f32) (main_arg6 : FVec F S512 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4096x512x64 .f32) (main_arg1 : FVec F S64x16 .f32) (main_arg2 : FVec F S16 .f32) (main_arg3 : FVec F S8192x1 .f32) (main_arg4 : FVec F S1 .f32) (main_arg5 : FVec F S2 .f32) (main_arg6 : FVec F S512 .f32) : IVec S_ 1 :=
  let main_v0 : FVec F S4096x512x64 .f32 := Host.absf main_arg0
  let main_cst : FVec F S_ .f32 := constant S_ .f32 0x7F800000#32
  let main_v1 : FVec F S4096x512x64 .f32 := broadcastInDim S4096x512x64 ![] bcast_S_S4096x512x64 main_cst
  let main_v2 : IVec S4096x512x64 1 := cmpf .olt main_v0 main_v1
  let main_c : IVec S_ 1 := constantI S_ 1 1#1
  let main_v3 : IVec S_ 1 := (fun x v => Host.reduce IntOp.andi x v reducesTo_S4096x512x64_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_arg5 main_arg6 main_v13 main_v16
-- ==== Kernel.lean ====
abbrev S4096x512x64 : Shape := ⟨3, ![4096, 512, 64]⟩
abbrev S64x16 : Shape := ⟨2, ![64, 16]⟩
abbrev S16 : Shape := ⟨1, ![16]⟩
abbrev S8192x1 : Shape := ⟨2, ![8192, 1]⟩
abbrev S1 : Shape := ⟨1, ![1]⟩
abbrev S2 : Shape := ⟨1, ![2]⟩
abbrev S512 : Shape := ⟨1, ![512]⟩
abbrev S512x16 : Shape := ⟨2, ![512, 16]⟩
abbrev S4096x1 : Shape := ⟨2, ![4096, 1]⟩
abbrev S64x128x64 : Shape := ⟨3, ![64, 128, 64]⟩
abbrev S128x16 : Shape := ⟨2, ![128, 16]⟩
abbrev S64x1 : Shape := ⟨2, ![64, 1]⟩
abbrev S8192x64 : Shape := ⟨2, ![8192, 64]⟩
abbrev S8192x16 : Shape := ⟨2, ![8192, 16]⟩
abbrev S1x16 : Shape := ⟨2, ![1, 16]⟩
abbrev S64x128x16 : Shape := ⟨3, ![64, 128, 16]⟩
abbrev S1x128x16 : Shape := ⟨3, ![1, 128, 16]⟩
abbrev S64x128 : Shape := ⟨2, ![64, 128]⟩
abbrev S64 : Shape := ⟨1, ![64]⟩
abbrev S1x1 : Shape := ⟨2, ![1, 1]⟩
abbrev S_ : Shape := ⟨0, ![]⟩
abbrev S512x1 : Shape := ⟨2, ![512, 1]⟩
abbrev S512x2 : Shape := ⟨2, ![512, 2]⟩
abbrev S4096x512x2 : Shape := ⟨3, ![4096, 512, 2]⟩
abbrev S4096x1024 : Shape := ⟨2, ![4096, 1024]⟩
abbrev S4096x1025 : Shape := ⟨2, ![4096, 1025]⟩

abbrev nBuf : Space → Nat
  | .hbm => 38
  | .vmem => 10
  | .smem => 0
  | _ => 0

abbrev bufTy : (tb : Table) → Fin (tcTables nBuf tb) → BufTy
  | .hbm, ⟨0, _⟩ => ⟨S4096x512x64, .f32⟩
  | .hbm, ⟨1, _⟩ => ⟨S64x16, .f32⟩
  | .hbm, ⟨2, _⟩ => ⟨S16, .f32⟩
  | .hbm, ⟨3, _⟩ => ⟨S8192x1, .f32⟩
  | .hbm, ⟨4, _⟩ => ⟨S1, .f32⟩
  | .hbm, ⟨5, _⟩ => ⟨S2, .f32⟩
  | .hbm, ⟨6, _⟩ => ⟨S512, .f32⟩
  | .hbm, ⟨7, _⟩ => ⟨S512x16, .f32⟩
  | .hbm, ⟨8, _⟩ => ⟨S4096x1, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512x1, .f32⟩
  | .hbm, ⟨33, _⟩ => ⟨S512x1, .f32⟩
  | .hbm, ⟨34, _⟩ => ⟨S512x2, .f32⟩
  | .hbm, ⟨35, _⟩ => ⟨S4096x512x2, .f32⟩
  | .hbm, ⟨36, _⟩ => ⟨S4096x1024, .f32⟩
  | .hbm, ⟨37, _⟩ => ⟨S4096x1025, .f32⟩
  | .local _ .vmem, ⟨0, _⟩ => ⟨S64x128x64, .f32⟩
  | .local _ .vmem, ⟨1, _⟩ => ⟨S64x128x64, .f32⟩
  | .local _ .vmem, ⟨2, _⟩ => ⟨S64x16, .f32⟩
  | .local _ .vmem, ⟨3, _⟩ => ⟨S16, .f32⟩
  | .local _ .vmem, ⟨4, _⟩ => ⟨S128x16, .f32⟩
  | .local _ .vmem, ⟨5, _⟩ => ⟨S128x16, .f32⟩
  | .local _ .vmem, ⟨6, _⟩ => ⟨S1, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | _, _ => ⟨S4096x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192x1_S512x16 : S8192x1.ShapeCasts S512x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x128x64_S64x128x64_0_0_0 : ∀ a, (![0, 0, 0] : Fin 3 → Nat) a + S64x128x64.size a ≤ S64x128x64.size a
  h_S64x128x64 : 0 < S64x128x64.numel
  shapeCasts_S64x128x64_S8192x64 : S64x128x64.ShapeCasts S8192x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S8192x16 : S1x16.Broadcasts S8192x16
  shapeCasts_S8192x16_S64x128x16 : S8192x16.ShapeCasts S64x128x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  shapeCasts_S128x16_S1x128x16 : S128x16.ShapeCasts S1x128x16
  broadcasts_S1x128x16_S64x128x16 : S1x128x16.Broadcasts S64x128x16
  reduces_S64x128x16_S64x128 : S64x128x16.Reduces [2] S64x128
  reduces_S64x128_S64 : S64x128.Reduces [1] S64
  shapeCasts_S64_S64x1 : S64.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S64x1 : S1x1.Broadcasts S64x1
  slices_S2_S1_0 : S2.Slices ![0] S1
  shapeCasts_S1_S_ : S1.ShapeCasts S_
  bcast_S_S512 : S_.BroadcastsInDim S512 (![] : Fin 0 → Fin S512.rank)
  slices_S2_S1_1 : S2.Slices ![1] S1
  bcast_S512_S512x1_0 : S512.BroadcastsInDim S512x1 (![0] : Fin 1 → Fin S512x1.rank)
  concatenates_S512x1_S512x1_S512x2_d1 : Shape.Concatenates [S512x1, S512x1] S512x2 1
  bcast_S512x2_S4096x512x2_1_2 : S512x2.BroadcastsInDim S4096x512x2 (![1, 2] : Fin 2 → Fin S4096x512x2.rank)
  shapeCasts_S4096x512x2_S4096x1024 : S4096x512x2.ShapeCasts S4096x1024
  concatenates_S4096x1024_S4096x1_S4096x1025_d1 : Shape.Concatenates [S4096x1024, S4096x1] S4096x1025 1
  dot_S8192x64_S64x16_S8192x16_1_0_0_1_n_n_wf : DotDims.WF S8192x64 S64x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S4096x512x64.size a
  hwx0_0 : ∀ i : grid0.Coords, EltTy.bits .f32 = 32 ∨ (Rect.block (s := S4096x512x64) S64x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S512x16.size a
  hwx0_3 : ∀ i : grid0.Coords, EltTy.bits .f32 = 32 ∨ (Rect.block (s := S512x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S4096x1.size a
  hwx0_5 : ∀ i : grid0.Coords, EltTy.bits .f32 = 32 ∨ (Rect.block (s := S4096x1) S64x1.size (cc0_transform_5 i) (hinb0_5 i)).WholeWords (EltTy.packing .f32)

variable [Facts₀]

def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

abbrev win0_0 : Pipeline.Window sig grid0 :=
  Pipeline.Window.ofSpec (Memref.whole main_arg0) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x512x64 : Shape := ⟨3, ![4096, 512, 64]⟩
abbrev S64x16 : Shape := ⟨2, ![64, 16]⟩
abbrev S16 : Shape := ⟨1, ![16]⟩
abbrev S8192x1 : Shape := ⟨2, ![8192, 1]⟩
abbrev S1 : Shape := ⟨1, ![1]⟩
abbrev S2 : Shape := ⟨1, ![2]⟩
abbrev S512 : Shape := ⟨1, ![512]⟩
abbrev S4096x512x16 : Shape := ⟨3, ![4096, 512, 16]⟩
abbrev S1x1x16 : Shape := ⟨3, ![1, 1, 16]⟩
abbrev S_ : Shape := ⟨0, ![]⟩
abbrev S512x1 : Shape := ⟨2, ![512, 1]⟩
abbrev S512x2 : Shape := ⟨2, ![512, 2]⟩
abbrev S4096x512x2 : Shape := ⟨3, ![4096, 512, 2]⟩
abbrev S4096x1024 : Shape := ⟨2, ![4096, 1024]⟩
abbrev S4096x8192 : Shape := ⟨2, ![4096, 8192]⟩
abbrev S4096x1 : Shape := ⟨2, ![4096, 1]⟩
abbrev S1x1 : Shape := ⟨2, ![1, 1]⟩
abbrev S4096 : Shape := ⟨1, ![4096]⟩
abbrev S4096x1025 : Shape := ⟨2, ![4096, 1025]⟩

abbrev nBuf : Space → Nat
  | .hbm => 50
  | .vmem => 0
  | .smem => 0
  | _ => 0

abbrev bufTy : (tb : Table) → Fin (tcTables nBuf tb) → BufTy
  | .hbm, ⟨0, _⟩ => ⟨S4096x512x64, .f32⟩
  | .hbm, ⟨1, _⟩ => ⟨S64x16, .f32⟩
  | .hbm, ⟨2, _⟩ => ⟨S16, .f32⟩
  | .hbm, ⟨3, _⟩ => ⟨S8192x1, .f32⟩
  | .hbm, ⟨4, _⟩ => ⟨S1, .f32⟩
  | .hbm, ⟨5, _⟩ => ⟨S2, .f32⟩
  | .hbm, ⟨6, _⟩ => ⟨S512, .f32⟩
  | .hbm, ⟨7, _⟩ => ⟨S4096x512x16, .f32⟩
  | .hbm, ⟨8, _⟩ => ⟨S1x1x16, .f32⟩
  | .hbm, ⟨9, _⟩ => ⟨S4096x512x16, .f32⟩
  | .hbm, ⟨10, _⟩ => ⟨S4096x512x16, .f32⟩
  | .hbm, ⟨11, _⟩ => ⟨S_, .f32⟩
  | .hbm, ⟨12, _⟩ => ⟨S4096x512x16, .f32⟩
  | .hbm, ⟨13, _⟩ => ⟨S4096x512x16, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S512x1, .f32⟩
  | .hbm, ⟨38, _⟩ => ⟨S512x1, .f32⟩
  | .hbm, ⟨39, _⟩ => ⟨S512x2, .f32⟩
  | .hbm, ⟨40, _⟩ => ⟨S4096x512x2, .f32⟩
  | .hbm, ⟨41, _⟩ => ⟨S4096x1024, .f32⟩
  | .hbm, ⟨42, _⟩ => ⟨S4096x8192, .f32⟩
  | .hbm, ⟨43, _⟩ => ⟨S4096x1, .f32⟩
  | .hbm, ⟨44, _⟩ => ⟨S1x1, .f32⟩
  | .hbm, ⟨45, _⟩ => ⟨S4096x1, .f32⟩
  | .hbm, ⟨46, _⟩ => ⟨S4096x1, .f32⟩
  | .hbm, ⟨47, _⟩ => ⟨S4096, .f32⟩
  | .hbm, ⟨48, _⟩ => ⟨S4096x1, .f32⟩
  | .hbm, ⟨49, _⟩ => ⟨S4096x1025, .f32⟩
  | _, _ => ⟨S4096x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S4096x512x16_0_1_2 : S1x1x16.BroadcastsInDim S4096x512x16 (![0, 1, 2] : Fin 3 → Fin S4096x512x16.rank)
  bcast_S_S4096x512x16 : S_.BroadcastsInDim S4096x512x16 (![] : Fin 0 → Fin S4096x512x16.rank)
  slices_S2_S1_0 : S2.Slices ![0] S1
  shapeCasts_S1_S_ : S1.ShapeCasts S_
  bcast_S_S512 : S_.BroadcastsInDim S512 (![] : Fin 0 → Fin S512.rank)
  slices_S2_S1_1 : S2.Slices ![1] S1
  bcast_S512_S512x1_0 : S512.BroadcastsInDim S512x1 (![0] : Fin 1 → Fin S512x1.rank)
  concatenates_S512x1_S512x1_S512x2_d1 : Shape.Concatenates [S512x1, S512x1] S512x2 1
  bcast_S512x2_S4096x512x2_1_2 : S512x2.BroadcastsInDim S4096x512x2 (![1, 2] : Fin 2 → Fin S4096x512x2.rank)
  shapeCasts_S4096x512x2_S4096x1024 : S4096x512x2.ShapeCasts S4096x1024
  shapeCasts_S4096x512x16_S4096x8192 : S4096x512x16.ShapeCasts S4096x8192
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  bcast_S4096_S4096x1_0 : S4096.BroadcastsInDim S4096x1 (![0] : Fin 1 → Fin S4096x1.rank)
  concatenates_S4096x1024_S4096x1_S4096x1025_d1 : Shape.Concatenates [S4096x1024, S4096x1] S4096x1025 1
  dot_S4096x512x64_S64x16_S4096x512x16_2_0_01_1_n_n_wf : DotDims.WF S4096x512x64 S64x16 S4096x512x16 [2] [0] [0, 1] [1] [] []
  dot_S4096x8192_S8192x1_S4096x1_1_0_0_1_n_n_wf : DotDims.WF S4096x8192 S8192x1 S4096x1 [1] [0] [0] [1] [] []

variable [Facts₀]

def dot_S4096x512x64_S64x16_S4096x512x16_2_0_01_1_n_n : DotDims S4096x512x64 S64x16 S4096x512x16 where
  lhsContracting := [2]
  rhsContracting := [0]
  lhsNonContracting := [0, 1]
  rhsNonContracting := [1]
  lhsBatch := []
  rhsBatch := []
  wf := dot_S4096x512x64_S64x16_S4096x512x16_2_0_01_1_n_n_wf
def dot_S4096x8192_S8192x1_S4096x1_1_0_0_1_n_n : DotDims S4096x8192 S8192x1 S4096x1 where
  lhsContracting := [1]
  rhsContracting := [0]
  lhsNonContracting := [0]
  rhsNonContracting := [1]
  lhsBatch := []
  rhsBatch := []
  wf := dot_S4096x8192_S8192x1_S4096x1_1_0_0_1_n_n_wf

class Facts : Prop extends Facts₀ where

variable [Facts]
-- ==== Proof.Pieces.lean ====
/-
  What each control case of the kernel body leaves behind, as values. The body keeps a per-row accumulator in a
  scratch buffer: at the first column block of a row block it stores zeros there, at every column block it adds the
  block's contribution, and at the last column block it adds the value-head bias and stores the result block.
  Each case's stores cover their buffer with one whole-buffer store last, so what the buffer holds afterwards is
  that store's payload; the loads read whole buffers, so the payloads are functions of the buffers' contents.
-/
import proofs.«159580_j27212912787871_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- A later column block (neither first nor last): the accumulator, holding `acc`, ends at `acc` plus the block's
    contribution — the one covering store's payload over the whole input buffers. -/
theorem scratch_mid (c : Dev nD) (i : grid0.Coords) (a2 : Memref sig .tc .vmem S64x128x64 .f32) (h2 : a2.IsWhole) (a3 : Memref sig .tc .vmem S64x16 .f32) (h3 : a3.IsWhole) (a4 : Memref sig .tc .vmem S16 .f32) (h4 : a4.IsWhole) (a5 : Memref sig .tc .vmem S128x16 .f32) (h5 : a5.IsWhole) (a6 : Memref sig .tc .vmem S1 .f32) (h6 : a6.IsWhole) (a7 : Memref sig .tc .vmem S64x1 .f32) (h7 : a7.IsWhole) (a8 : Memref sig .tc .vmem S64x1 .f32) (h8 : a8.IsWhole) (hc0 : ¬cond0_0 i) (hc1 : ¬cond0_1 i)
    (x0 : Vec F S64x128x64 .f32) (x1 : Vec F S64x16 .f32) (x2 : Vec F S16 .f32) (x3 : Vec F S128x16 .f32) (x4 : Vec F S1 .f32) (acc : Vec F S64x1 .f32) :
    sout0_B_0 c i a2 h2 a3 h3 a4 h4 a5 h5 a6 h6 a7 h7 a8 h8 hc0 hc1 x0 x1 x2 x3 x4 acc = k0_pay2 x0 x1 x2 x3 acc := by
  unfold sout0_B_0
  rw [View.read_writes_eq_canon _ _ _ (scover0_B_0 c i a2 h2 a3 h3 a4 h4 a5 h5 a6 h6 a7 h7 a8 h8 hc0 hc1 x0 x1 x2 x3 x4 acc)]
  unfold kernelRun0_B
  dsimp only
  rw [View.canon_unit_zero zeros2]
  simp only [View.readAt_eq_ld, h2.read_unread, h3.read_unread, h4.read_unread, h5.read_unread, h8.read_unread,
    View.ld_unit_zero (S := S64x128x64) zeros3, View.ld_unit_zero (S := S64x16) zeros2, View.ld_unit_zero (S := S16) zeros1,
    View.ld_unit_zero (S := S128x16) zeros2, View.ld_unit_zero (S := S64x1) zeros2]

/-- The first column block of a row block: the body zeroes the accumulator, reads the zeros back and adds the block's
    contribution; the second store covers the buffer, so the accumulator ends at the contribution over the zero
    block (the read-back is the run's own named intermediate, a covered load of the first store). -/
theorem scratch_first (c : Dev nD) (i : grid0.Coords) (a2 : Memref sig .tc .vmem S64x128x64 .f32) (h2 : a2.IsWhole) (a3 : Memref sig .tc .vmem S64x16 .f32) (h3 : a3.IsWhole) (a4 : Memref sig .tc .vmem S16 .f32) (h4 : a4.IsWhole) (a5 : Memref sig .tc .vmem S128x16 .f32) (h5 : a5.IsWhole) (a6 : Memref sig .tc .vmem S1 .f32) (h6 : a6.IsWhole) (a7 : Memref sig .tc .vmem S64x1 .f32) (h7 : a7.IsWhole) (a8 : Memref sig .tc .vmem S64x1 .f32) (h8 : a8.IsWhole) (hc0 : cond0_0 i) (hc1 : ¬cond0_1 i)
    (x0 : Vec F S64x128x64 .f32) (x1 : Vec F S64x16 .f32) (x2 : Vec F S16 .f32) (x3 : Vec F S128x16 .f32) (x4 : Vec F S1 .f32) :
    sout0_A_0 c i a2 h2 a3 h3 a4 h4 a5 h5 a6 h6 a7 h7 a8 h8 hc0 hc1 x0 x1 x2 x3 x4 = k0_pay2 x0 x1 x2 x3 (k0_pay1 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S64x1) zeros2, View.readCov_unit_zero (S := S64x1) _ zeros2]
  simp only [View.readAt_eq_ld, h2.read_unread, h3.read_unread, h4.read_unread, h5.read_unread, h6.read_unread, h8.read_unread,
    View.ld_unit_zero (S := S64x128x64) zeros3, View.ld_unit_zero (S := S64x16) zeros2, View.ld_unit_zero (S := S16) zeros1,
    View.ld_unit_zero (S := S128x16) zeros2, View.ld_unit_zero (S := S64x1) zeros2, View.ld_unit_zero (S := S1) zeros1]

/-- The last column block of a row block, the accumulator: as at any later block. -/
theorem scratch_last (c : Dev nD) (i : grid0.Coords) (a2 : Memref sig .tc .vmem S64x128x64 .f32) (h2 : a2.IsWhole) (a3 : Memref sig .tc .vmem S64x16 .f32) (h3 : a3.IsWhole) (a4 : Memref sig .tc .vmem S16 .f32) (h4 : a4.IsWhole) (a5 : Memref sig .tc .vmem S128x16 .f32) (h5 : a5.IsWhole) (a6 : Memref sig .tc .vmem S1 .f32) (h6 : a6.IsWhole) (a7 : Memref sig .tc .vmem S64x1 .f32) (h7 : a7.IsWhole) (a8 : Memref sig .tc .vmem S64x1 .f32) (h8 : a8.IsWhole) (hc0 : ¬cond0_0 i) (hc1 : cond0_1 i)
    (x0 : Vec F S64x128x64 .f32) (x1 : Vec F S64x16 .f32) (x2 : Vec F S16 .f32) (x3 : Vec F S128x16 .f32) (x4 : Vec F S1 .f32) (acc : Vec F S64x1 .f32) :
    sout0_C_0 c i a2 h2 a3 h3 a4 h4 a5 h5 a6 h6 a7 h7 a8 h8 hc0 hc1 x0 x1 x2 x3 x4 acc = k0_pay2 x0 x1 x2 x3 acc := by
  unfold sout0_C_0
  rw [View.read_writes_eq_canon _ _ _ (scover0_C_0 c i a2 h2 a3 h3 a4 h4 a5 h5 a6 h6 a7 h7 a8 h8 hc0 hc1 x0 x1 x2 x3 x4 acc)]
  unfold kernelRun0_C
  dsimp only
  sl_unfold_words
  rw [View.canon_unit_zero zeros2]
  simp only [View.readAt_eq_ld, h2.read_unread, h3.read_unread, h4.read_unread, h5.read_unread, h6.read_unread, h8.read_unread,
    View.ld_unit_zero (S := S64x128x64) zeros3, View.ld_unit_zero (S := S64x16) zeros2, View.ld_unit_zero (S := S16) zeros1,
    View.ld_unit_zero (S := S128x16) zeros2, View.ld_unit_zero (S := S64x1) zeros2, View.ld_unit_zero (S := S1) zeros1]

/-- The last column block of a row block, the result block: the accumulator just stored, read back, plus the
    value-head bias. -/
theorem result_last (c : Dev nD) (i : grid0.Coords) (a2 : Memref sig .tc .vmem S64x128x64 .f32) (h2 : a2.IsWhole) (a3 : Memref sig .tc .vmem S64x16 .f32) (h3 : a3.IsWhole) (a4 : Memref sig .tc .vmem S16 .f32) (h4 : a4.IsWhole) (a5 : Memref sig .tc .vmem S128x16 .f32) (h5 : a5.IsWhole) (a6 : Memref sig .tc .vmem S1 .f32) (h6 : a6.IsWhole) (a7 : Memref sig .tc .vmem S64x1 .f32) (h7 : a7.IsWhole) (a8 : Memref sig .tc .vmem S64x1 .f32) (h8 : a8.IsWhole) (hc0 : ¬cond0_0 i) (hc1 : cond0_1 i)
    (x0 : Vec F S64x128x64 .f32) (x1 : Vec F S64x16 .f32) (x2 : Vec F S16 .f32) (x3 : Vec F S128x16 .f32) (x4 : Vec F S1 .f32) (acc : Vec F S64x1 .f32) :
    out0_C_5 c i a2 h2 a3 h3 a4 h4 a5 h5 a6 h6 a7 h7 a8 h8 hc0 hc1 x0 x1 x2 x3 x4 acc = k0_pay3 (k0_pay2 x0 x1 x2 x3 acc) x4 := by
  unfold out0_C_5
  rw [View.read_writes_eq_canon _ _ _ (cover0_C_5 c i a2 h2 a3 h3 a4 h4 a5 h5 a6 h6 a7 h7 a8 h8 hc0 hc1 x0 x1 x2 x3 x4 acc)]
  unfold kernelRun0_C
  dsimp only
  sl_unfold_words
  rw [View.canon_unit_zero zeros2, View.readCov_unit_zero (S := S64x1) _ zeros2]
  simp only [View.readAt_eq_ld, h2.read_unread, h3.read_unread, h4.read_unread, h5.read_unread, h6.read_unread, h8.read_unread,
    View.ld_unit_zero (S := S64x128x64) zeros3, View.ld_unit_zero (S := S64x16) zeros2, View.ld_unit_zero (S := S16) zeros1,
    View.ld_unit_zero (S := S128x16) zeros2, View.ld_unit_zero (S := S64x1) zeros2, View.ld_unit_zero (S := S1) zeros1]

end Cert.KernelIdeal.Acc

end
-- ==== Proof.Unroll.lean ====
/-
  The accumulation over a row block's four column blocks, unrolled. Grid point `t` is row block `t / 4`, column block
  `t % 4`. The result block is written at the fourth column block only, and the accumulator it reads was zeroed at the
  first: so what point `t` (with `t % 4 = 3`) writes depends on the four points `t - 3 … t` and on nothing earlier.
-/
import proofs.«159580_j27212912787871_1_alg».proof.Proof.Pieces

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- One point's accumulating step: the accumulator plus the contribution of the point's input blocks. -/
def step (c : Dev nD) (s : Fin cfg0.N) (acc : Vec F S64x1 .f32) : Vec F S64x1 .f32 :=
  k0_pay2 (iblk m c 0 s) (iblk m c 1 s) (iblk m c 2 s) (iblk m c 3 s) acc

/-- The grid point before `s`. -/
def before (s : Fin cfg0.N) : Fin cfg0.N := ⟨s.val - 1, Nat.lt_of_le_of_lt (Nat.sub_le _ _) s.isLt⟩

theorem before_val (s : Fin cfg0.N) : (before s).val = s.val - 1 := rfl

/-- After a first column block the accumulator holds that block's step over zeros. -/
theorem acc_first (c : Dev nD) (s : Fin cfg0.N) (h0 : s.val % 4 = 0) (h1 : ¬s.val % 4 = 3) :
    (outsAt0 m c s.val s.isLt).2 = step m c s (k0_pay1 (F := F)) := by
  rw [outsAt0_A m c s h0 h1]
  dsimp only
  exact scratch_first c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) ((hcond0_0 s).mpr h0) (fun h => h1 ((hcond0_1 s).mp h)) (iblk m c 0 s) (iblk m c 1 s) (iblk m c 2 s) (iblk m c 3 s) (iblk m c 4 s)

/-- After a middle column block: the block's step over what the point before left. -/
theorem acc_mid (c : Dev nD) (s : Fin cfg0.N) (h0 : ¬s.val % 4 = 0) (h1 : ¬s.val % 4 = 3) :
    (outsAt0 m c s.val s.isLt).2 = step m c s (outsAt0 m c (before s).val (before s).isLt).2 := by
  rw [outsAt0_B m c s h0 h1]
  dsimp only
  exact scratch_mid c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) (fun h => h0 ((hcond0_0 s).mp h)) (fun h => h1 ((hcond0_1 s).mp h)) (iblk m c 0 s) (iblk m c 1 s) (iblk m c 2 s) (iblk m c 3 s) (iblk m c 4 s)
    (outsAt0 m c (s.val - 1) (Nat.lt_of_le_of_lt (Nat.sub_le _ _) s.isLt)).2

/-- At a last column block the result block is that step plus the value-head bias. -/
theorem result_at_last (c : Dev nD) (s : Fin cfg0.N) (h0 : ¬s.val % 4 = 0) (h1 : s.val % 4 = 3) :
    (outsAt0 m c s.val s.isLt).1 = k0_pay3 (step m c s (outsAt0 m c (before s).val (before s).isLt).2) (iblk m c 4 s) := by
  rw [outsAt0_C m c s h0 h1]
  dsimp only
  exact result_last c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) (fun h => h0 ((hcond0_0 s).mp h)) ((hcond0_1 s).mpr h1) (iblk m c 0 s) (iblk m c 1 s) (iblk m c 2 s) (iblk m c 3 s) (iblk m c 4 s)
    (outsAt0 m c (s.val - 1) (Nat.lt_of_le_of_lt (Nat.sub_le _ _) s.isLt)).2

/-- The four steps of a row block, composed: what its last point writes into the result block. -/
theorem result_unrolled (c : Dev nD) (t : Fin cfg0.N) (h3 : t.val % 4 = 3) :
    (outsAt0 m c t.val t.isLt).1
      = k0_pay3 (step m c t (step m c (before t) (step m c (before (before t))
          (step m c (before (before (before t))) (k0_pay1 (F := F)))))) (iblk m c 4 t) := by
  have b1 := before_val t
  have b2 := before_val (before t)
  have b3 := before_val (before (before t))
  rw [result_at_last m c t (by omega) h3, acc_mid m c (before t) (by omega) (by omega),
    acc_mid m c (before (before t)) (by omega) (by omega),
    acc_first m c (before (before (before t))) (by omega) (by omega)]

end Cert.KernelIdeal.Acc

end
-- ==== Proof.PayIdx.lean ====
/-
  The body's arithmetic read at one row of a block, over the extended reals. A block holds 64 batch rows, 128 of the
  512 positions and all 64 features. For batch row `r` the block contributes
      ∑ₖ ∑ₑ max (∑_f x[r,k,f] · w[f,e] + b[e]) 0 · v[k,e]
  (positions k, embedding lanes e): the matrix product into the zero accumulator is the plain sum over the features,
  rounding the operands to a shorter format is the identity, the two lane reductions are the two sums, and the
  layout changes only rename indices (row `128 r + k` of the flattened block is position `k` of batch row `r`).
-/
import proofs.«159580_j27212912787871_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Acc

open Cert.KernelIdeal Cert.KernelIdeal.Gen

/-- The pattern of +0.0, which both programs keep as a pattern (it denotes the real 0). -/
abbrev zeroE : EReal := Ideal.ofBits .f32 0x00000000#32

/-- Position `k` of batch row `r` in the block's flattened list of 64 · 128 rows. -/
abbrev flat (r : Fin 64) (k : Fin 128) : Fin 8192 := ⟨128 * r.val + k.val, by omega⟩

/-- What one block adds to batch row `r`'s running total. -/
def contrib (x : Vec Ideal S64x128x64 .f32) (w : Vec Ideal S64x16 .f32) (b : Vec Ideal S16 .f32) (v : Vec Ideal S128x16 .f32)
    (r : Fin 64) : EReal :=
  ∑ k : Fin 128, ∑ e : Fin 16, max ((∑ f : Fin 64, x (ix3 r k f) * w (ix2 f e)) + b (ix1 e)) zeroE * v (ix2 k e)

/-- The block flattened to 8192 rows reads batch row `r`, position `k` at row `128 r + k`. -/
theorem flatten_read (x : Vec Ideal S64x128x64 .f32) (h : S64x128x64.ShapeCasts S8192x64) (r : Fin 64) (k : Fin 128) (f : Fin 64) :
    shapeCast S8192x64 x h (ix2 (flat r k) f) = x (ix3 r k f) :=
  shapeCast_apply x h _ _ (by
    rw [Shape.rowMajor_val_three, Shape.rowMajor_val_two]
    show (r.val * 128 + k.val) * 64 + f.val = (128 * r.val + k.val) * 64 + f.val
    omega)

/-- And back: the 8192 rows regrouped as 64 batch rows of 128 positions. -/
theorem regroup_read (y : FVec Ideal S8192x16 .f32) (h : S8192x16.ShapeCasts S64x128x16) (r : Fin 64) (k : Fin 128) (e : Fin 16) :
    shapeCast S64x128x16 y h (ix3 r k e) = y (ix2 (flat r k) e) :=
  shapeCast_apply y h _ _ (by
    rw [Shape.rowMajor_val_two, Shape.rowMajor_val_three]
    show (128 * r.val + k.val) * 16 + e.val = (r.val * 128 + k.val) * 16 + e.val
    omega)

theorem lhs_row (i : S8192x16.Idx) (q : dot_S8192x64_S64x16_S8192x16_1_0_0_1_n_n.contr.Idx) : (dot_S8192x64_S64x16_S8192x16_1_0_0_1_n_n.lhsIdx i q 0).val = (i 0).val := by
  unfold DotDims.lhsIdx
  rw [dif_neg (show ¬(0 : Fin S8192x64.rank) ∈ dot_S8192x64_S64x16_S8192x16_1_0_0_1_n_n.lhsBatch by decide), dif_pos (show (0 : Fin S8192x64.rank) ∈ dot_S8192x64_S64x16_S8192x16_1_0_0_1_n_n.lhsNonContracting by decide)]
  rfl

theorem rhs_col (i : S8192x16.Idx) (q : dot_S8192x64_S64x16_S8192x16_1_0_0_1_n_n.contr.Idx) : (dot_S8192x64_S64x16_S8192x16_1_0_0_1_n_n.rhsIdx i q 1).val = (i 1).val := by
  unfold DotDims.rhsIdx
  rw [dif_neg (show ¬(1 : Fin S64x16.rank) ∈ dot_S8192x64_S64x16_S8192x16_1_0_0_1_n_n.rhsBatch by decide), dif_pos (show (1 : Fin S64x16.rank) ∈ dot_S8192x64_S64x16_S8192x16_1_0_0_1_n_n.rhsNonContracting by decide)]
  rfl

/-- The matrix product into the zero accumulator, at row `R` and lane `e`: the sum over the 64 features. -/
theorem matmul_read (A : FVec Ideal S8192x64 .bf16) (B : FVec Ideal S64x16 .bf16) (R : Fin 8192) (e : Fin 16) :
    matmul dot_S8192x64_S64x16_S8192x16_1_0_0_1_n_n none A B (constant (F := Ideal) S8192x16 .f32 0x00000000#32) (ix2 R e)
      = ∑ f : Fin 64, A (ix2 R f) * B (ix2 f e) := by
  refine (Ideal.matmul_constant_zero_apply dot_S8192x64_S64x16_S8192x16_1_0_0_1_n_n none A B (ix2 R e)).trans ?_
  rw [← Equiv.sum_comp (ValueIdx.contrEquiv1 dot_S8192x64_S64x16_S8192x16_1_0_0_1_n_n 64 rfl rfl).symm]
  refine Finset.sum_congr rfl fun f _ => ?_
  have hk := ValueIdx.contrEquiv1_symm_val dot_S8192x64_S64x16_S8192x16_1_0_0_1_n_n 64 rfl rfl f
  have el : dot_S8192x64_S64x16_S8192x16_1_0_0_1_n_n.lhsIdx (ix2 R e) ((ValueIdx.contrEquiv1 dot_S8192x64_S64x16_S8192x16_1_0_0_1_n_n 64 rfl rfl).symm f) = ix2 R f :=
    funext fun a => Fin.ext (by
      match a with
      | ⟨0, _⟩ => exact lhs_row _ _
      | ⟨1, _⟩ => exact (dot_S8192x64_S64x16_S8192x16_1_0_0_1_n_n.lhsIdx_val_of_single rfl _ _).trans hk)
  have er : dot_S8192x64_S64x16_S8192x16_1_0_0_1_n_n.rhsIdx (ix2 R e) ((ValueIdx.contrEquiv1 dot_S8192x64_S64x16_S8192x16_1_0_0_1_n_n 64 rfl rfl).symm f) = ix2 f e :=
    funext fun a => Fin.ext (by
      match a with
      | ⟨0, _⟩ => exact (dot_S8192x64_S64x16_S8192x16_1_0_0_1_n_n.rhsIdx_val_of_single rfl _ _).trans hk
      | ⟨1, _⟩ => exact rhs_col _ _)
  rw [el, er]

/-- The bias as one row broadcast down the 8192 rows reads the bias at the lane. -/
theorem bias_read (b : Vec Ideal S16 .f32) (h : S16.ShapeCasts S1x16) (h' : S1x16.Broadcasts S8192x16) (R : Fin 8192) (e : Fin 16) :
    broadcastTo S8192x16 (shapeCast S1x16 b h) h' (ix2 R e) = b (ix1 e) :=
  (broadcastTo_1b_ab_apply _ h' R e).trans (shapeCast_a_1a_apply b h 0 e)

/-- The value-head weights of the block's 128 positions, repeated for each of the 64 batch rows. -/
theorem weights_read (v : Vec Ideal S128x16 .f32) (h0 : S128x16.ShapeCasts S128x16) (h1 : S128x16.ShapeCasts S1x128x16)
    (h2 : S1x128x16.Broadcasts S64x128x16) (r : Fin 64) (k : Fin 128) (e : Fin 16) :
    broadcastTo S64x128x16 (shapeCast S1x128x16 (shapeCast S128x16 v h0) h1) h2 (ix3 r k e) = v (ix2 k e) := by
  refine (broadcastTo_apply _ h2 (ix3 r k e) (ix3 (0 : Fin 1) k e) (fun a => ?_)).trans ?_
  · match a with
    | ⟨0, _⟩ => rfl
    | ⟨1, _⟩ => rfl
    | ⟨2, _⟩ => rfl
  · refine (shapeCast_ab_1ab_apply _ h1 0 k e).trans ?_
    exact congrFun (shapeCast_self v h0) _

/-- The two lane reductions (over the 16 lanes, then over the 128 positions), as a column: the double sum. -/
theorem rowsum_read (y : FVec Ideal S64x128x16 .f32) (r : Fin 64) (z : Fin 1) :
    shapeCast S64x1 (multiReduction .add [1] S64 (multiReduction .add [2] S64x128 y 0x00000000#32 reduces_S64x128x16_S64x128 (.inl rfl) rfl)
        0x00000000#32 reduces_S64x128_S64 (.inl rfl) rfl) shapeCasts_S64_S64x1 (ix2 r z)
      = ∑ k : Fin 128, ∑ e : Fin 16, y (ix3 r k e) := by
  have hzv : z.val = 0 := by have := z.isLt; omega
  refine (shapeCast_apply _ shapeCasts_S64_S64x1 (ix2 r z) (ix1 r) (by
    rw [Shape.rowMajor_val_one, Shape.rowMajor_val_two]
    show r.val = r.val * 1 + z.val
    omega)).trans ?_
  refine (Ideal.multiReduction_add_single _ _ reduces_S64x128_S64 _ _ (ix1 r)).trans ?_
  refine Finset.sum_congr rfl fun k _ => ?_
  have e1 : reduces_S64x128_S64.lift (ix1 r) k = ix2 r k :=
    funext fun a => Fin.ext (by match a with | ⟨0, _⟩ => rfl | ⟨1, _⟩ => rfl)
  rw [e1]
  refine (Ideal.multiReduction_add_single _ _ reduces_S64x128x16_S64x128 _ _ (ix2 r k)).trans ?_
  refine Finset.sum_congr rfl fun e _ => ?_
  have e2 : reduces_S64x128x16_S64x128.lift (ix2 r k) e = ix3 r k e :=
    funext fun a => Fin.ext (by match a with | ⟨0, _⟩ => rfl | ⟨1, _⟩ => rfl | ⟨2, _⟩ => rfl)
  exact congrArg y e2

/-- The accumulating store's payload at batch row `r`: the accumulator there plus the block's contribution. -/
theorem accumulate_read (x : Vec Ideal S64x128x64 .f32) (w : Vec Ideal S64x16 .f32) (b : Vec Ideal S16 .f32) (v : Vec Ideal S128x16 .f32)
    (acc : Vec Ideal S64x1 .f32) (r : Fin 64) (z : Fin 1) :
    k0_pay2 (F := Ideal) x w b v acc (ix2 r z) = acc (ix2 r z) + contrib x w b v r := by
  unfold k0_pay2
  dsimp only
  refine (congrFun (shapeCast_self _ shapeCasts_S64x1_S64x1) _).trans ?_
  refine (ValueIdx.addf_apply _ _ _).trans ?_
  refine congrArg (fun t => acc (ix2 r z) + t) ?_
  refine (rowsum_read _ r z).trans ?_
  unfold contrib
  refine Finset.sum_congr rfl fun k _ => Finset.sum_congr rfl fun e _ => ?_
  refine (ValueIdx.mulf_apply _ _ _).trans ?_
  refine congrArg₂ (fun s t : EReal => s * t) ?_ (weights_read v _ _ _ r k e)
  refine (regroup_read _ _ r k e).trans ?_
  refine (ValueIdx.maximumf_apply _ _ _).trans ?_
  refine congrArg₂ (fun s t : EReal => max s t) ?_ rfl
  refine (ValueIdx.addf_apply _ _ _).trans ?_
  refine congrArg₂ (fun s t : EReal => s + t) ?_ (bias_read b _ _ (flat r k) e)
  refine (matmul_read _ _ (flat r k) e).trans ?_
  exact Finset.sum_congr rfl fun f _ => congrArg (fun s : EReal => s * w (ix2 f e)) (flatten_read x _ r k f)

/-- The zeroing store's payload: the zero pattern everywhere. -/
theorem zero_read (r : Fin 64) (z : Fin 1) : k0_pay1 (F := Ideal) (ix2 r z) = zeroE := by
  unfold k0_pay1
  exact congrFun (shapeCast_self _ shapeCasts_S64x1_S64x1) _

/-- The result store's payload at batch row `r`: the accumulator there plus the one value-head bias. -/
theorem result_read (acc : Vec Ideal S64x1 .f32) (bv : Vec Ideal S1 .f32) (r : Fin 64) (z : Fin 1) :
    k0_pay3 (F := Ideal) acc bv (ix2 r z) = acc (ix2 r z) + bv (ix1 (0 : Fin 1)) := by
  unfold k0_pay3
  refine (ValueIdx.addf_apply _ _ _).trans ?_
  refine congrArg (fun t => acc (ix2 r z) + t) ?_
  refine (broadcastTo_apply _ broadcasts_S1x1_S64x1 (ix2 r z) (ix2 (0 : Fin 1) (0 : Fin 1)) (fun a => ?_)).trans ?_
  · match a with
    | ⟨0, _⟩ => rfl
    | ⟨1, _⟩ => rfl
  · exact shapeCast_a_1a_apply bv shapeCasts_S1_S1x1 0 0

end Cert.KernelIdeal.Acc

end
-- ==== Proof.Blocks.lean ====
/-
  The input blocks the body sees at a grid point, read off the arrays. Point `s` is row block `s / 4` and column
  block `s % 4`: the activations' block holds batch rows `64 (s / 4) + r` and positions `128 (s % 4) + k`; the head
  weights' block holds the same positions of the weights regrouped as 512 rows of 16 (row `n`, lane `e` of the
  regrouped array is entry `16 n + e` of the weight column); the other three windows always show their whole array.
-/
import proofs.«159580_j27212912787871_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- The printed index maps, decided over the 256 grid points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val % 4 ∧ win0_3.index t (1 : Fin 2) = 0
    ∧ win0_4.index t (0 : Fin 1) = 0
    ∧ win0_5.index t (0 : Fin 2) = t.val / 4 ∧ win0_5.index t (1 : Fin 2) = 0 :=
  (by decide +kernel : ∀ t : Fin grid0.N, _)

/-- The activations' block at point `s`. -/
theorem x_block (c : Dev nD) (s : Fin cfg0.N) (r : Fin 64) (k : Fin 128) (f : Fin 64)
    (hb : 64 * (s.val / 4) + r.val < 4096) (hn : 128 * (s.val % 4) + k.val < 512) :
    (iblk m c 0 s : Vec F S64x128x64 .f32) (ix3 r k f)
      = m ((c : Thread nD τ).loc main_arg0) (ix3 ⟨64 * (s.val / 4) + r.val, hb⟩ ⟨128 * (s.val % 4) + k.val, hn⟩ f) := by
  obtain ⟨e0, e1, e2, -⟩ := idx_facts s
  unfold iblk
  rw [View.read_apply]
  show V m c main_arg0 (((cfg0.win 0).blk s).view.emb (ix3 r k f)) = _
  rw [V_main_arg0]
  refine congrArg _ (funext fun a => Fin.ext ?_)
  match a with
  | ⟨0, _⟩ => show win0_0.index s (0 : Fin 3) * 64 + 1 * r.val = 64 * (s.val / 4) + r.val; rw [e0]; omega
  | ⟨1, _⟩ => show win0_0.index s (1 : Fin 3) * 128 + 1 * k.val = 128 * (s.val % 4) + k.val; rw [e1]; omega
  | ⟨2, _⟩ => show win0_0.index s (2 : Fin 3) * 64 + 1 * f.val = f.val; rw [e2]; omega

/-- The embedding matrix: the whole array at every point. -/
theorem w_block (c : Dev nD) (s : Fin cfg0.N) (f : Fin 64) (e : Fin 16) :
    (iblk m c 1 s : Vec F S64x16 .f32) (ix2 f e) = m ((c : Thread nD τ).loc main_arg1) (ix2 f e) := by
  obtain ⟨-, -, -, e0, e1, -⟩ := idx_facts s
  unfold iblk
  rw [View.read_apply]
  show V m c main_arg1 (((cfg0.win 1).blk s).view.emb (ix2 f e)) = _
  rw [V_main_arg1]
  refine congrArg _ (funext fun a => Fin.ext ?_)
  match a with
  | ⟨0, _⟩ => show win0_1.index s (0 : Fin 2) * 64 + 1 * f.val = f.val; rw [e0]; omega
  | ⟨1, _⟩ => show win0_1.index s (1 : Fin 2) * 16 + 1 * e.val = e.val; rw [e1]; omega

/-- The embedding bias: the whole array at every point. -/
theorem b_block (c : Dev nD) (s : Fin cfg0.N) (e : Fin 16) :
    (iblk m c 2 s : Vec F S16 .f32) (ix1 e) = m ((c : Thread nD τ).loc main_arg2) (ix1 e) := by
  obtain ⟨-, -, -, -, -, e0, -⟩ := idx_facts s
  unfold iblk
  rw [View.read_apply]
  show V m c main_arg2 (((cfg0.win 2).blk s).view.emb (ix1 e)) = _
  rw [V_main_arg2]
  refine congrArg _ (funext fun a => Fin.ext ?_)
  match a with
  | ⟨0, _⟩ => show win0_2.index s (0 : Fin 1) * 16 + 1 * e.val = e.val; rw [e0]; omega

/-- The head's bias: the whole one-element array at every point. -/
theorem bv_block (c : Dev nD) (s : Fin cfg0.N) (u : Fin 1) :
    (iblk m c 4 s : Vec F S1 .f32) (ix1 u) = m ((c : Thread nD τ).loc main_arg4) (ix1 u) := by
  obtain ⟨-, -, -, -, -, -, -, -, e0, -⟩ := idx_facts s
  unfold iblk
  rw [View.read_apply]
  show V m c main_arg4 (((cfg0.win 4).blk s).view.emb (ix1 u)) = _
  rw [V_main_arg4]
  refine congrArg _ (funext fun a => Fin.ext ?_)
  match a with
  | ⟨0, _⟩ => show win0_4.index s (0 : Fin 1) * 1 + 1 * u.val = u.val; rw [e0]; omega

/-- The region finds the head weights regrouped: the one host line before it is the reshape of the weight column. -/
theorem weights_entry (c : Dev nD) :
    (V m c main_v0 : S512x16.Idx → Elt F .f32) = shapeCast S512x16 (m ((c : Thread nD τ).loc main_arg3)) shapeCasts_S8192x1_S512x16 := by
  show StableHlo.after hostOps0 (fun b => m (c, b)) (Proc.devRef .tc main_v0) = _
  after_results
  rfl

/-- Row `n`, lane `e` of the regrouped weights is entry `16 n + e` of the column. -/
theorem regrouped_read (y : S8192x1.Idx → Elt F .f32) (n : Fin 512) (e : Fin 16) (hq : 16 * n.val + e.val < 8192) :
    shapeCast S512x16 y shapeCasts_S8192x1_S512x16 (ix2 n e) = y (ix2 ⟨16 * n.val + e.val, hq⟩ (0 : Fin 1)) :=
  shapeCast_apply y shapeCasts_S8192x1_S512x16 _ _ (by
    rw [Shape.rowMajor_val_two, Shape.rowMajor_val_two]
    show (16 * n.val + e.val) * 1 + 0 = n.val * 16 + e.val
    omega)

/-- The head weights' block at point `s`. -/
theorem v_block (c : Dev nD) (s : Fin cfg0.N) (k : Fin 128) (e : Fin 16)
    (hq : 16 * (128 * (s.val % 4) + k.val) + e.val < 8192) :
    (iblk m c 3 s : Vec F S128x16 .f32) (ix2 k e)
      = m ((c : Thread nD τ).loc main_arg3) (ix2 ⟨16 * (128 * (s.val % 4) + k.val) + e.val, hq⟩ (0 : Fin 1)) := by
  obtain ⟨-, -, -, -, -, -, e0, e1, -⟩ := idx_facts s
  have hn : 128 * (s.val % 4) + k.val < 512 := by omega
  unfold iblk
  rw [View.read_apply]
  show V m c main_v0 (((cfg0.win 3).blk s).view.emb (ix2 k e)) = _
  rw [weights_entry]
  refine Eq.trans ?_ (regrouped_read (m ((c : Thread nD τ).loc main_arg3)) ⟨128 * (s.val % 4) + k.val, hn⟩ e hq)
  refine congrArg _ (funext fun a => Fin.ext ?_)
  match a with
  | ⟨0, _⟩ => show win0_3.index s (0 : Fin 2) * 128 + 1 * k.val = 128 * (s.val % 4) + k.val; rw [e0]; omega
  | ⟨1, _⟩ => show win0_3.index s (1 : Fin 2) * 16 + 1 * e.val = e.val; rw [e1]; omega

end Cert.KernelIdeal.Acc

end
-- ==== Proof.Spec.lean ====
/-
  The value head, as mathematics over the extended reals. For a batch row `b`, position `n` (of 512) and embedding
  lane `e` (of 16) one term is
      max (∑_f x[b,n,f] · w[f,e] + bias[e]) 0 · wv[16 n + e],
  and the head's value at `b` is the sum of all 512 · 16 terms plus the head's bias. One program adds the terms in
  four blocks of 128 positions, each block into a running total started at zero; the other adds them as one sum over
  the 8192 flattened (position, lane) pairs `q = 16 n + e`. Addition on the extended reals is commutative and
  associative and `0` is neutral, so the two totals agree whatever the terms are (no finiteness is used).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A sum over `a · b` consecutive numbers, split into `a` runs of `b`. -/
theorem sum_fin_mul {M : Type} [AddCommMonoid M] (a b : ℕ) (f : Fin (a * b) → M) :
    ∑ q, f q = ∑ i : Fin a, ∑ j : Fin b, f (finProdFinEquiv (i, j)) :=
  (Equiv.sum_comp finProdFinEquiv f).symm.trans (Fintype.sum_prod_type' fun i j => f (finProdFinEquiv (i, j)))

section
variable (X : (⟨3, ![4096, 512, 64]⟩ : Shape).Idx → EReal) (W : (⟨2, ![64, 16]⟩ : Shape).Idx → EReal)
  (B : (⟨1, ![16]⟩ : Shape).Idx → EReal) (WV : (⟨2, ![8192, 1]⟩ : Shape).Idx → EReal) (BV : (⟨1, ![1]⟩ : Shape).Idx → EReal)

/-- The pattern of +0.0 (it denotes the real 0). -/
abbrev zeroE : EReal := Ideal.ofBits .f32 0x00000000#32

/-- The flattened (position, lane) pair. -/
abbrev pair (n : Fin 512) (e : Fin 16) : Fin 8192 := ⟨16 * n.val + e.val, by omega⟩

/-- One term of the head: the rectified embedding of position `n`, lane `e`, times its head weight. -/
def term (b : Fin 4096) (n : Fin 512) (e : Fin 16) : EReal :=
  max ((∑ f : Fin 64, X (ix3 b n f) * W (ix2 f e)) + B (ix1 e)) zeroE * WV (ix2 (pair n e) (0 : Fin 1))

/-- A term, spelt out. -/
theorem term_eq (b : Fin 4096) (n : Fin 512) (e : Fin 16) :
    term X W B WV b n e
      = max ((∑ f : Fin 64, X (ix3 b n f) * W (ix2 f e)) + B (ix1 e)) zeroE * WV (ix2 (pair n e) (0 : Fin 1)) := by
  unfold term
  rfl

/-- Position `k` of block `j`. -/
abbrev inBlock (j : Fin 4) (k : Fin 128) : Fin 512 := ⟨128 * j.val + k.val, by omega⟩

/-- The terms of one block of 128 positions. -/
def blockSum (b : Fin 4096) (j : Fin 4) : EReal := ∑ k : Fin 128, ∑ e : Fin 16, term X W B WV b (inBlock j k) e

/-- The head's value accumulated block by block from zero, then the bias. -/
def headBlocks (b : Fin 4096) : EReal :=
  ((((zeroE + blockSum X W B WV b 0) + blockSum X W B WV b 1) + blockSum X W B WV b 2) + blockSum X W B WV b 3) + BV (ix1 (0 : Fin 1))

/-- The head's value as one sum over the flattened pairs, then the bias. -/
def headFlat (b : Fin 4096) : EReal :=
  (∑ q : Fin 8192, term X W B WV b ⟨q.val / 16 % 512, Nat.mod_lt _ (by decide)⟩ ⟨q.val % 16, Nat.mod_lt _ (by decide)⟩) + BV (ix1 (0 : Fin 1))

/-- The two ways of adding the same 8192 terms agree. -/
theorem headBlocks_eq_headFlat (b : Fin 4096) : headBlocks X W B WV BV b = headFlat X W B WV BV b := by
  unfold headBlocks headFlat
  refine congrArg (fun s : EReal => s + BV (ix1 (0 : Fin 1))) ?_
  rw [show (zeroE : EReal) = 0 from Ideal.ofBits_zero_f32, zero_add]
  have h1 := sum_fin_mul 512 16 (fun q : Fin (512 * 16) =>
    term X W B WV b ⟨q.val / 16 % 512, Nat.mod_lt _ (by decide)⟩ ⟨q.val % 16, Nat.mod_lt _ (by decide)⟩)
  refine Eq.trans ?_ h1.symm
  have h2 := sum_fin_mul 4 128 (fun n : Fin (4 * 128) =>
    ∑ e : Fin 16, term X W B WV b ⟨(finProdFinEquiv (n, e)).val / 16 % 512, Nat.mod_lt _ (by decide)⟩
      ⟨(finProdFinEquiv (n, e)).val % 16, Nat.mod_lt _ (by decide)⟩)
  refine Eq.trans ?_ h2.symm
  rw [Fin.sum_univ_four]
  unfold blockSum
  have key : ∀ (j : Fin 4), (∑ k : Fin 128, ∑ e : Fin 16, term X W B WV b (inBlock j k) e)
      = ∑ k : Fin 128, ∑ e : Fin 16, term X W B WV b
          ⟨(finProdFinEquiv ((finProdFinEquiv (j, k) : Fin (4 * 128)), e)).val / 16 % 512, Nat.mod_lt _ (by decide)⟩
          ⟨(finProdFinEquiv ((finProdFinEquiv (j, k) : Fin (4 * 128)), e)).val % 16, Nat.mod_lt _ (by decide)⟩ := by
    intro j
    refine Finset.sum_congr rfl fun k _ => Finset.sum_congr rfl fun e _ => ?_
    have hj := j.isLt
    have hk := k.isLt
    have he := e.isLt
    have v1 : ((finProdFinEquiv (j, k) : Fin (4 * 128))).val = k.val + 128 * j.val := rfl
    have v2 : (finProdFinEquiv ((finProdFinEquiv (j, k) : Fin (4 * 128)), e)).val = e.val + 16 * (k.val + 128 * j.val) := rfl
    congr 1
    · exact Fin.ext (by show 128 * j.val + k.val = _ / 16 % 512; rw [v2]; omega)
    · exact Fin.ext (by show e.val = _ % 16; rw [v2]; omega)
  rw [key 0, key 1, key 2, key 3]

end

end Cert.Spec

end
-- ==== Proof.Final.lean ====
/-
  The result array of the kernel, over the extended reals: batch row `b` ends at the head's value accumulated block
  by block. The last point of row block `i` (grid point `4 i + 3`) writes rows `64 i … 64 i + 63`, each the four
  blocks' contributions added in order to a zero start, plus the head's bias; these 64 row blocks tile the array.
-/
import proofs.«159580_j27212912787871_1_alg».proof.Proof.Unroll
import proofs.«159580_j27212912787871_1_alg».proof.Proof.PayIdx
import proofs.«159580_j27212912787871_1_alg».proof.Proof.Blocks
import proofs.«159580_j27212912787871_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The head's value column, as a function of the argument arrays. -/
def head (c : Dev nD) : Buf (Elt Ideal) ((c : Thread nD τ).loc main_v1) := fun i =>
  Cert.Spec.headBlocks (m ((c : Thread nD τ).loc main_arg0)) (m ((c : Thread nD τ).loc main_arg1)) (m ((c : Thread nD τ).loc main_arg2)) (m ((c : Thread nD τ).loc main_arg3)) (m ((c : Thread nD τ).loc main_arg4)) ⟨(i 0).val, idx2_lt0 i⟩

/-- One point's step at batch row `r` of its row block: the accumulator plus the terms of its 128 positions. -/
theorem step_read (c : Dev nD) (s : Fin cfg0.N) (acc : Vec Ideal S64x1 .f32) (r : Fin 64) (z : Fin 1)
    (i : ℕ) (j : Fin 4) (hi : s.val / 4 = i) (hj : s.val % 4 = j.val) (hb : 64 * i + r.val < 4096) :
    step m c s acc (ix2 r z) = acc (ix2 r z) + Cert.Spec.blockSum (m ((c : Thread nD τ).loc main_arg0)) (m ((c : Thread nD τ).loc main_arg1)) (m ((c : Thread nD τ).loc main_arg2)) (m ((c : Thread nD τ).loc main_arg3)) ⟨64 * i + r.val, hb⟩ j := by
  subst hi
  obtain rfl : j = ⟨s.val % 4, Nat.mod_lt _ (by decide)⟩ := Fin.ext hj.symm
  unfold step
  refine (accumulate_read (iblk m c 0 s) (iblk m c 1 s) (iblk m c 2 s) (iblk m c 3 s) acc r z).trans ?_
  refine congrArg (fun t : EReal => acc (ix2 r z) + t) ?_
  unfold contrib Cert.Spec.blockSum
  refine Finset.sum_congr rfl fun k _ => Finset.sum_congr rfl fun e _ => ?_
  unfold Cert.Spec.term
  exact congrArg₂ (fun a b : EReal => a * b)
    (congrArg₂ (fun a b : EReal => max a b)
      (congrArg₂ (fun a b : EReal => a + b)
        (Finset.sum_congr rfl fun f _ => congrArg₂ (fun a b : EReal => a * b) (x_block m c s r k f hb _) (w_block m c s f e))
        (b_block m c s e)) rfl)
    (v_block m c s k e _)

/-- What the last point of a row block writes at its batch row `r`. -/
theorem result_row (c : Dev nD) (t : Fin cfg0.N) (h3 : t.val % 4 = 3) (r : Fin 64) (z : Fin 1)
    (hb : 64 * (t.val / 4) + r.val < 4096) :
    (outsAt0 m c t.val t.isLt).1 (ix2 r z) = Cert.Spec.headBlocks (m ((c : Thread nD τ).loc main_arg0)) (m ((c : Thread nD τ).loc main_arg1)) (m ((c : Thread nD τ).loc main_arg2)) (m ((c : Thread nD τ).loc main_arg3)) (m ((c : Thread nD τ).loc main_arg4)) ⟨64 * (t.val / 4) + r.val, hb⟩ := by
  have b1 := before_val t
  have b2 := before_val (before t)
  have b3 := before_val (before (before t))
  rw [result_unrolled m c t h3]
  refine (result_read _ _ r z).trans ?_
  unfold Cert.Spec.headBlocks
  refine congrArg₂ (fun a b : EReal => a + b) ?_ (bv_block m c t 0)
  refine (step_read m c t _ r z (t.val / 4) 3 rfl h3 hb).trans ?_
  refine congrArg (fun a : EReal => a + Cert.Spec.blockSum (m ((c : Thread nD τ).loc main_arg0)) (m ((c : Thread nD τ).loc main_arg1)) (m ((c : Thread nD τ).loc main_arg2)) (m ((c : Thread nD τ).loc main_arg3)) ⟨64 * (t.val / 4) + r.val, hb⟩ 3) ?_
  refine (step_read m c (before t) _ r z (t.val / 4) 2 (by omega) (by show (before t).val % 4 = 2; omega) hb).trans ?_
  refine congrArg (fun a : EReal => a + Cert.Spec.blockSum (m ((c : Thread nD τ).loc main_arg0)) (m ((c : Thread nD τ).loc main_arg1)) (m ((c : Thread nD τ).loc main_arg2)) (m ((c : Thread nD τ).loc main_arg3)) ⟨64 * (t.val / 4) + r.val, hb⟩ 2) ?_
  refine (step_read m c (before (before t)) _ r z (t.val / 4) 1 (by omega) (by show (before (before t)).val % 4 = 1; omega) hb).trans ?_
  refine congrArg (fun a : EReal => a + Cert.Spec.blockSum (m ((c : Thread nD τ).loc main_arg0)) (m ((c : Thread nD τ).loc main_arg1)) (m ((c : Thread nD τ).loc main_arg2)) (m ((c : Thread nD τ).loc main_arg3)) ⟨64 * (t.val / 4) + r.val, hb⟩ 1) ?_
  refine (step_read m c (before (before (before t))) _ r z (t.val / 4) 0 (by omega) (by show (before (before (before t))).val % 4 = 0; omega) hb).trans ?_
  exact congrArg (fun a : EReal => a + Cert.Spec.blockSum (m ((c : Thread nD τ).loc main_arg0)) (m ((c : Thread nD τ).loc main_arg1)) (m ((c : Thread nD τ).loc main_arg2)) (m ((c : Thread nD τ).loc main_arg3)) ⟨64 * (t.val / 4) + r.val, hb⟩ 0) (zero_read r z)

/-- What a writing point writes back is its block of the head's column. -/
theorem flushed_eq (c : Dev nD) (t : Fin cfg0.N) (hf : (cfg0.win 5).flush t = true) :
    (dats m 0 c).flushed 5 t = ((cfg0.win 5).blk t).view.read (Elt Ideal) (head m c) := by
  have h3 : t.val % 4 = 3 := (flush0_5 t).mp hf
  have hN : t.val < 256 := lt_of_lt_of_eq t.isLt (show cfg0.N = 256 from N_0)
  obtain ⟨-, -, -, -, -, -, -, -, -, e9, e10⟩ := idx_facts t
  show (cfg0.win 5).cut (grid0.coords t) ((dats m 0 c).after 5 t) = _
  rw [after0_5]
  funext y
  obtain ⟨r, z, rfl⟩ : ∃ (r : Fin 64) (z : Fin 1), y = ix2 r z := ⟨y 0, y 1, eq_ix2 y⟩
  have hb : 64 * (t.val / 4) + r.val < 4096 := by omega
  show (outsAt0 m c t.val t.isLt).1 (ix2 r z) = head m c (((cfg0.win 5).blk t).view.emb (ix2 r z))
  rw [result_row m c t h3 r z hb]
  unfold head
  refine congrArg _ (Fin.ext ?_)
  show 64 * (t.val / 4) + r.val = win0_5.index t (0 : Fin 2) * 64 + 1 * r.val
  rw [e9]; omega

/-- An index of the result array is in point `t`'s block iff each coordinate is in the block's range. -/
theorem mem_blk (t : Fin cfg0.N) (i : S4096x1.Idx) :
    i ∈ ((cfg0.win 5).blk t).view.set ↔ ∀ a : Fin 2, win0_5.index t a * S64x1.size a ≤ (i a).val ∧ (i a).val < win0_5.index t a * S64x1.size a + S64x1.size a := by
  show i ∈ ((View.whole main_v1).slice (win0_5.rect t)).set ↔ _
  rw [View.set_slice_whole, Rect.mem_set_unit]
  exact Iff.rfl

/-- Every row of the result array is in the block of the last point of its row block. -/
theorem covered (i : S4096x1.Idx) : ∃ t : Fin cfg0.N, (cfg0.win 5).flush t = true ∧ i ∈ ((cfg0.win 5).blk t).view.set := by
  have h0 : (i 0).val < 4096 := (i 0).isLt
  have h1 : (i 1).val < 1 := (i 1).isLt
  have hN : cfg0.N = 256 := N_0
  let t : Fin cfg0.N := ⟨4 * ((i 0).val / 64) + 3, by omega⟩
  have tv : t.val = 4 * ((i 0).val / 64) + 3 := rfl
  obtain ⟨-, -, -, -, -, -, -, -, -, e9, e10⟩ := idx_facts t
  refine ⟨t, (flush0_5 t).mpr (by omega), ?_⟩
  rw [mem_blk]
  intro a
  match a with
  | ⟨0, _⟩ => show win0_5.index t (0 : Fin 2) * 64 ≤ (i 0).val ∧ (i 0).val < win0_5.index t (0 : Fin 2) * 64 + 64; rw [e9]; omega
  | ⟨1, _⟩ => show win0_5.index t (1 : Fin 2) * 1 ≤ (i 1).val ∧ (i 1).val < win0_5.index t (1 : Fin 2) * 1 + 1; rw [e10]; omega

/-- The result array after the run is the head's column. -/
theorem final (c : Dev nD) : (dats m 0 c).arrAt 5 cfg0.N = head m c :=
  (dats m 0 c).arrAt_eq_of_cover 5 (head m c) (flushed_eq m c) (covered)

end Cert.KernelIdeal.Acc

end
-- ==== Proof.KernelRun.lean ====
/-
  The whole idealized kernel program: the lines after the region build the action columns from the two parameters
  and the bounds (two logistic scalings, paired, repeated for each batch row, flattened to 1024 columns) and append
  the value column as column 1024. The action part does not involve the region; the value column is the region's
  result array. So the program's result is one joining function of three arrays, and the run ends with it applied to
  the parameter and bounds arguments and the head's value column.
-/
import proofs.«159580_j27212912787871_1_alg».proof.Proof.Final
import proofs.«159580_j27212912787871_1_alg».proof.Proof.Gen.ReferenceIdeal.Read

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

/-- The action columns of the two parameters and the bounds, with a value column appended: both programs' result, as
    a function of those three arrays (spelt with the reference's operations; the kernel's lines after the region
    are the same operations in the same order). -/
def joined (p : Cert.ReferenceIdeal.S2.Idx → EReal) (hi : Cert.ReferenceIdeal.S512.Idx → EReal) (v : Cert.ReferenceIdeal.S4096x1.Idx → EReal) : Cert.ReferenceIdeal.S4096x1025.Idx → EReal :=
  concatenate Cert.ReferenceIdeal.S4096x1025 1 [⟨Cert.ReferenceIdeal.S4096x1024, Cert.ReferenceIdeal.Read.val_main_v27 (F := Ideal) p hi⟩, ⟨Cert.ReferenceIdeal.S4096x1, v⟩]
    Cert.ReferenceIdeal.Facts₀.concatenates_S4096x1024_S4096x1_S4096x1025_d1

theorem joined_congr {p p' : Cert.ReferenceIdeal.S2.Idx → EReal} {hi hi' : Cert.ReferenceIdeal.S512.Idx → EReal} {v v' : Cert.ReferenceIdeal.S4096x1.Idx → EReal}
    (e1 : p = p') (e2 : hi = hi') (e3 : v = v') : joined p hi v = joined p' hi' v' := by
  subst e1 e2 e3; rfl

set_option maxRecDepth 8192 in
set_option maxHeartbeats 2000000 in
/-- The kernel's lines after the region, from any buffer contents: the joining function of what the parameter, bounds
    and value-column buffers hold. -/
theorem tail_any (Vl : Valuation τ sig (Elt Ideal)) :
    StableHlo.after hostOps1 Vl (Proc.devRef .tc main_v25)
      = joined (Vl (Proc.devRef .tc main_arg5)) (Vl (Proc.devRef .tc main_arg6)) (Vl (Proc.devRef .tc main_v1)) := by
  after_results_simp <;> rfl

variable (m : (ℓ : Loc nD τ sig) → Buf (Elt Ideal) ℓ) (ρ : Dev nD → PrngReg)

/-- The program's result buffer after the run. -/
theorem tail_eq (c : Dev nD) :
    Pipeline.afterTail₀ cfgs (dats m) 0 (V0 m) [hostOps1] c main_v25
      = joined (m ((c : Thread nD τ).loc main_arg5)) (m ((c : Thread nD τ).loc main_arg6)) (head m c) := by
  unfold Pipeline.afterTail₀
  show StableHlo.after hostOps1 (Pipeline.withArrays spec0 c (V0 m c) fun w => (dats m 0 c).arrAt w cfg0.N) (Proc.devRef .tc main_v25) = _
  refine (tail_any _).trans ?_
  have e5 := (Pipeline.withArrays_of_ne spec0 c (V0 m c) (fun w => (dats m 0 c).arrAt w cfg0.N) main_arg5
    (by exact (by decide : ∀ w, Pipeline.arrRef spec0 w ≠ main_arg5))).trans (V_main_arg5 m c)
  have e6 := (Pipeline.withArrays_of_ne spec0 c (V0 m c) (fun w => (dats m 0 c).arrAt w cfg0.N) main_arg6
    (by exact (by decide : ∀ w, Pipeline.arrRef spec0 w ≠ main_arg6))).trans (V_main_arg6 m c)
  have e1 := (Pipeline.withArrays_arr spec0 launch0.win.arr_inj c (V0 m c) (fun w => (dats m 0 c).arrAt w cfg0.N) 5).trans (final m c)
  exact joined_congr e5 e6 e1

/-- The run, read: the result buffer at the joining function of the arguments and the head's column, the arguments
    unchanged. -/
theorem run : θ_run defs (onTc (τ := τ) (main (F := Ideal))) ⟨m, fun _ => 0, ρ⟩ fun r => ∀ c : Dev nD,
      r.2.mem ((c : Thread nD τ).loc main_v25) = joined (m ((c : Thread nD τ).loc main_arg5)) (m ((c : Thread nD τ).loc main_arg6)) (head m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v25 (Pipeline.mem_restRefs_of main_v25 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Acc

end
-- ==== Proof.RefValue.lean ====
/-
  The reference's value column, read at a batch row: the second matrix product is the sum over the 8192 flattened
  (position, lane) pairs `q` of the rectified embedding at position `q / 16`, lane `q % 16`, times entry `q` of the
  head's weight column; the bias is added after. The first matrix product is the sum over the 64 features. The
  layout operations between them only rename indices.
-/
import proofs.«159580_j27212912787871_1_alg».proof.Proof.Gen.ReferenceIdeal.Read
import proofs.«159580_j27212912787871_1_alg».proof.Proof.Spec

noncomputable section

open Idealize.ShloMosaic Idealize.ShloMosaic.TcCoe Idealize.SL.Sem Idealize.ShloMosaic.ValueIdx

namespace Cert.ReferenceIdeal.Head

open Cert.ReferenceIdeal Cert.ReferenceIdeal.Gen Cert.ReferenceIdeal.Read

/-- The index the reference's value column is read at, followed back to the sum's row. -/
abbrev rowOf (b : Fin 4096) (z : Fin 1) : S4096x1.Idx := idx_main_v33 (idx_main_v34 (ix2 b z))

/-- The (batch row, position, lane) the flattened pair `q` of batch row `b` stands for. -/
abbrev cellOf (b : Fin 4096) (z : Fin 1) (q : Fin 8192) : S4096x512x16.Idx := idx_main_v28 (lidx_main_v29 (rowOf b z) q)

theorem act_idx (b : Fin 4096) (z : Fin 1) (q : Fin 8192) (f : Fin 64) :
    lidx_main_v0 (cellOf b z q) f
      = ix3 b (⟨q.val / 16 % 512, Nat.mod_lt _ (by decide)⟩ : Fin 512) (f : Fin 64) := by
  funext a; apply Fin.ext
  have hb := b.isLt; have hq := q.isLt
  match a with
  | ⟨0, _⟩ => show (b.val / 1 * 8192 + q.val) / 8192 = b.val; omega
  | ⟨1, _⟩ => show (b.val / 1 * 8192 + q.val) / 16 % 512 = q.val / 16 % 512; omega
  | ⟨2, _⟩ => rfl

theorem emb_idx (b : Fin 4096) (z : Fin 1) (q : Fin 8192) (f : Fin 64) :
    ridx_main_v0 (cellOf b z q) f = ix2 f (⟨q.val % 16, Nat.mod_lt _ (by decide)⟩ : Fin 16) := by
  funext a; apply Fin.ext
  have hb := b.isLt; have hq := q.isLt
  match a with
  | ⟨0, _⟩ => rfl
  | ⟨1, _⟩ => show (b.val / 1 * 8192 + q.val) % 16 = q.val % 16; omega

theorem bias_idx (b : Fin 4096) (z : Fin 1) (q : Fin 8192) :
    idx_main_v1 (idx_main_v2 (cellOf b z q)) = ix1 (⟨q.val % 16, Nat.mod_lt _ (by decide)⟩ : Fin 16) := by
  funext a; apply Fin.ext
  have hb := b.isLt; have hq := q.isLt
  match a with
  | ⟨0, _⟩ => show (b.val / 1 * 8192 + q.val) % 16 = q.val % 16; omega

theorem weight_idx (b : Fin 4096) (z : Fin 1) (q : Fin 8192) :
    ridx_main_v29 (rowOf b z) q
      = ix2 (Cert.Spec.pair ⟨q.val / 16 % 512, Nat.mod_lt _ (by decide)⟩ ⟨q.val % 16, Nat.mod_lt _ (by decide)⟩) (0 : Fin 1) := by
  funext a; apply Fin.ext
  have hq := q.isLt
  match a with
  | ⟨0, _⟩ => show q.val = 16 * (q.val / 16 % 512) + q.val % 16; omega
  | ⟨1, _⟩ => rfl

theorem headbias_idx (b : Fin 4096) (z : Fin 1) : idx_main_v30 (idx_main_v31 (rowOf b z)) = ix1 (0 : Fin 1) := by
  funext a; apply Fin.ext
  match a with
  | ⟨0, _⟩ => rfl

/-- The reference's value column at batch row `b` is the head's value as one sum over the flattened pairs. -/
theorem head_read (x0 : (⟨S4096x512x64, .f32⟩ : BufTy).Contents (Elt Ideal)) (x1 : (⟨S64x16, .f32⟩ : BufTy).Contents (Elt Ideal))
    (x2 : (⟨S16, .f32⟩ : BufTy).Contents (Elt Ideal)) (x3 : (⟨S8192x1, .f32⟩ : BufTy).Contents (Elt Ideal))
    (x4 : (⟨S1, .f32⟩ : BufTy).Contents (Elt Ideal)) (b : Fin 4096) (z : Fin 1) :
    val_main_v34 (F := Ideal) x0 x1 x2 x3 x4 (ix2 b z) = Cert.Spec.headFlat x0 x1 x2 x3 x4 b := by
  rw [val_main_v34_apply, val_main_v33_apply, val_main_v32_apply, val_main_v29_apply, val_main_v31_apply, val_main_v30_apply]
  unfold Cert.Spec.headFlat
  refine congrArg₂ (fun s t : EReal => s + t) (Finset.sum_congr rfl fun q _ => ?_) (congrArg x4 (headbias_idx b z))
  rw [val_main_v28_apply, val_main_v4_apply, val_main_v3_apply, val_main_v0_apply, val_main_v2_apply, val_main_v1_apply,
    val_main_call0_v0_apply, val_main_call0_cst_apply]
  unfold Cert.Spec.term
  refine congrArg₂ (fun s t : EReal => s * t)
    (congrArg₂ (fun s t : EReal => max s t)
      (congrArg₂ (fun s t : EReal => s + t)
        (Finset.sum_congr rfl fun f _ => congrArg₂ (fun s t : EReal => s * t) (congrArg x0 (act_idx b z q f)) (congrArg x1 (emb_idx b z q f)))
        (congrArg x2 (bias_idx b z q))) rfl)
    (congrArg x3 (weight_idx b z q))

/-- So the whole value column is the head's value accumulated block by block: the two orders of adding the same
    8192 terms agree on the extended reals. -/
theorem column_eq (x0 : (⟨S4096x512x64, .f32⟩ : BufTy).Contents (Elt Ideal)) (x1 : (⟨S64x16, .f32⟩ : BufTy).Contents (Elt Ideal))
    (x2 : (⟨S16, .f32⟩ : BufTy).Contents (Elt Ideal)) (x3 : (⟨S8192x1, .f32⟩ : BufTy).Contents (Elt Ideal))
    (x4 : (⟨S1, .f32⟩ : BufTy).Contents (Elt Ideal)) :
    val_main_v34 (F := Ideal) x0 x1 x2 x3 x4 = fun i => Cert.Spec.headBlocks x0 x1 x2 x3 x4 ⟨(i 0).val, idx2_lt0 i⟩ := by
  funext i
  obtain ⟨b, z, rfl⟩ : ∃ (b : Fin 4096) (z : Fin 1), i = ix2 b z := ⟨i 0, i 1, eq_ix2 i⟩
  rw [head_read]
  exact (Cert.Spec.headBlocks_eq_headFlat x0 x1 x2 x3 x4 b).symm

end Cert.ReferenceIdeal.Head

end
-- ==== Proof.lean ====
/-
  Two programs compute, for 4096 batch rows, 1024 action columns and one value column. The action columns are the
  same operations of the same two arguments in both. The value at batch row b is
      ∑ₙ ∑ₑ max (∑_f x[b,n,f] · w[f,e] + bias[e]) 0 · wv[16 n + e]  +  bv
  over 512 positions n and 16 lanes e. The kernel adds the terms in four blocks of 128 positions, each into a running
  total that starts at zero, over a grid of 64 row blocks by 4 column blocks; the reference adds them as one sum over
  the 8192 pairs (n, e) flattened. At the exact reading a matrix product into a zero accumulator is the plain sum,
  the lane reductions are sums, a change of float format is the identity, and addition of extended reals is
  commutative and associative with 0 neutral: so the two values are equal whatever the inputs are. The idealization
  rewrote no operation, so that conjunct is trivial; the three frames are the generated ones (the reference's is its
  generated run with the result dropped).
-/
import proofs.«159580_j27212912787871_1_alg».proof.Defs
import proofs.«159580_j27212912787871_1_alg».proof.Proof.Gen.Kernel
import proofs.«159580_j27212912787871_1_alg».proof.Proof.Gen.Kernel.Frame
import proofs.«159580_j27212912787871_1_alg».proof.Proof.Gen.KernelIdeal
import proofs.«159580_j27212912787871_1_alg».proof.Proof.Gen.KernelIdeal.Frame
import proofs.«159580_j27212912787871_1_alg».proof.Proof.Gen.ReferenceIdeal
import proofs.«159580_j27212912787871_1_alg».proof.Proof.Gen.Pre_finite_inputs
import proofs.«159580_j27212912787871_1_alg».proof.Proof.Gen.ReferenceIdeal.Run
import proofs.«159580_j27212912787871_1_alg».proof.Proof.Gen.ReferenceIdeal.Read
import proofs.«159580_j27212912787871_1_alg».proof.Proof.KernelRun
import proofs.«159580_j27212912787871_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the joining function of the parameter and bounds arguments and a value column; the two
    value columns are the same 8192 terms per row, added in two orders. -/
theorem algebraic : Cert.algebraic_KernelIdeal_ReferenceIdeal := by
  intro m ρ m' ρ' _ hagree
  refine ⟨fun c => Cert.KernelIdeal.Acc.joined (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (Cert.KernelIdeal.Acc.head m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  show Cert.KernelIdeal.Acc.joined (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = _
  exact Cert.KernelIdeal.Acc.joined_congr rfl rfl
    (Cert.ReferenceIdeal.Head.column_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
